-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x10000x128 .f32) (main_arg1 : FVec F S1x10000x10000 .f32) (main_arg2 : FVec F S128x128 .f32) (main_arg3 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10000x128 : Shape := ⟨2, ![10000, 128]⟩
abbrev S10000x10000 : Shape := ⟨2, ![10000, 10000]⟩
abbrev S1x128 : Shape := ⟨2, ![1, 128]⟩
abbrev S2000x128 : Shape := ⟨2, ![2000, 128]⟩
abbrev S400x10000 : Shape := ⟨2, ![400, 10000]⟩
abbrev S400x128 : Shape := ⟨2, ![400, 128]⟩

abbrev nBuf : Space → Nat
  | .hbm => 11
  | .vmem => 11
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x10000, .f32⟩
  | .hbm, ⟨6, _⟩ => ⟨S128x128, .f32⟩
  | .hbm, ⟨7, _⟩ => ⟨S1x128, .f32⟩
  | .hbm, ⟨8, _⟩ => ⟨S10000x128, .bf16⟩
  | .hbm, ⟨9, _⟩ => ⟨S10000x128, .f32⟩
  | .hbm, ⟨10, _⟩ => ⟨S1x10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S10000x128, .bf16⟩
  | .local _ .vmem, ⟨6, _⟩ => ⟨S1x128, .f32⟩
  | .local _ .vmem, ⟨7, _⟩ => ⟨S400x10000, .f32⟩
  | .local _ .vmem, ⟨8, _⟩ => ⟨S400x10000, .f32⟩
  | .local _ .vmem, ⟨9, _⟩ => ⟨S400x128, .f32⟩
  | .local _ .vmem, ⟨10, _⟩ => ⟨S400x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x10000x128_S10000x128 : S1x10000x128.ShapeCasts S10000x128
  shapeCasts_S1x10000x10000_S10000x10000 : S1x10000x10000.ShapeCasts S10000x10000
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S10000x128_S1x10000x128 : S10000x128.ShapeCasts S1x10000x128
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .bf16 = 32 ∨ (Rect.block (s := S10000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.KernelRun.lean ====
/-
  The idealized kernel's whole run with its RESULT named. The program is four segments: a stretch of host
  layout operations, the feature product's region, the aggregation's region, one closing host reshape. Every
  weakly fair execution ends, nothing faulting, with the result buffer at the contents the last boundary of that
  chain of segments assigns to it (each region's output array at what its write-backs leave, each host stretch the
  fold of its operations) and with the four argument arrays as launched.
-/
import proofs.«157788_g34239479284012_cont_8to1_b_1779_5_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    last segment boundary assigns to it, and the argument arrays are as launched. The final state is read against the
    last thread state, which holds every unscoped buffer at the boundary's contents: the result buffer is one of them. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.FeatValue.lean ====
/-
  The feature product's region: what its output array holds when the region is left, as one function of the two
  arrays it reads, whatever those hold when the region is entered. The grid has five points; point t reads rows
  2000·t … 2000·t + 1999 of the left array and the whole right array, and writes back the same rows of the output.
  The body's stored value at (p, q) is the sum over j of left-block (p, j) · right (j, q) (the product into a zero
  accumulator; narrowing the result's format is the identity on the extended reals), so the block point t writes
  is rows 2000·t … of the whole product, and the five blocks cover the output.
-/
import proofs.«157788_g34239479284012_cont_8to1_b_1779_5_alg».proof.Proof.Gen.KernelIdeal.Frame
import proofs.«157788_g34239479284012_cont_8to1_b_1779_5_alg».proof.Proof.LibMatmul
import Idealize.ShloMosaic.Lib.Pipeline.Value
import Idealize.ShloMosaic.Lib.ValueIdx

noncomputable section

open scoped BigOperators

namespace Cert.KernelIdeal.Feat

open Cert.KernelIdeal Cert.KernelIdeal.Gen
open Idealize.ShloMosaic Idealize.ShloMosaic.TcCoe Idealize.SL.Sem Idealize.ShloMosaic.ValueIdx
open Idealize.ShloMosaic.Pipeline (Dat)

/-- Entry (p, q) of the product of a [10000, 128] array with a [128, 128] array. -/
def prodAt (s : FVec Ideal S10000x128 .f32) (w : FVec Ideal S128x128 .f32) (p : Fin 10000) (q : Fin 128) : EReal :=
  ∑ j : Fin 128, s (ix2 p j) * w (ix2 j q)

/-- The product as an array (stored in the narrower float format, the same extended reals). -/
def prod (s : FVec Ideal S10000x128 .f32) (w : FVec Ideal S128x128 .f32) : FVec Ideal S10000x128 .bf16 :=
  fun i => prodAt s w (i 0) (i 1)

theorem prod_ix2 (s : FVec Ideal S10000x128 .f32) (w : FVec Ideal S128x128 .f32) (p : Fin 10000) (q : Fin 128) :
    prod s w (ix2 p q) = prodAt s w p q := rfl

theorem hz : (![0, 0] : Fin 2 → Nat) = fun _ => 0 := funext fun a => by fin_cases a <;> rfl

/-- The body's stored value at (p, q): the sum over j of block (p, j) · right (j, q). -/
theorem pay (x0 : Vec Ideal S2000x128 .f32) (x1 : Vec Ideal S128x128 .f32) (p : Fin 2000) (q : Fin 128) :
    k0_pay1 (F := Ideal) x0 x1 (ix2 p q) = ∑ j : Fin 128, x0 (ix2 p j) * x1 (ix2 j q) := by
  show FloatOps.matmul (F := Ideal) (φ₁ := .f32) (φ₂ := .f32) dot_S2000x128_S128x128_S2000x128_1_0_0_1_n_n (some .fp32)
      (shapeCast S2000x128 x0 shapeCasts_S2000x128_S2000x128) (shapeCast S128x128 x1 shapeCasts_S128x128_S128x128)
      (constant S2000x128 .f32 0x00000000#32) (ix2 p q) = _
  rw [shapeCast_self, shapeCast_self]
  exact matmul_zero_ix2 dot_S2000x128_S128x128_S2000x128_1_0_0_1_n_n rfl rfl rfl rfl rfl rfl (some .fp32) x0 x1 p q

/-- The printed index maps over the five points: the left block and the output block move together along the rows,
    every other block index is zero, and the row block index stays below five. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 ∧ win0_2.index t (0 : Fin 2) < 5 :=
  (by decide +kernel : ∀ t : Fin grid0.N, _)

/-- Every row block is some point's. -/
theorem idx_onto : ∀ q0 : Fin 5, ∃ t : Fin cfg0.N, win0_2.index t (0 : Fin 2) = q0.val :=
  (by decide +kernel : ∀ q0 : Fin 5, ∃ t : Fin grid0.N, win0_2.index t (0 : Fin 2) = q0.val)

variable (V : (c : Dev nD) → (b : Ref sig .tc) → Buf (Elt Ideal) ((c : Thread nD τ).loc b))

/-- What point t writes back is block t of the whole product of the two arrays as the region finds them. -/
theorem flushed_eq (c : Dev nD) (t : Fin cfg0.N) :
    (dat0 V c).flushed 2 t = ((cfg0.win 2).blk t).view.read (Elt Ideal) (prod (V c main_v0) (V c main_v2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext y
  obtain ⟨p, q, rfl⟩ : ∃ (p : Fin 2000) (q : Fin 128), y = ix2 p q := ⟨y 0, y 1, eq_ix2 y⟩
  have hr : win0_2.index t (0 : Fin 2) * 2000 + p.val < 10000 := by have := p.isLt; omega
  have hi : ((cfg0.win 2).blk t).view.emb (ix2 p q) = ix2 (⟨win0_2.index t (0 : Fin 2) * 2000 + p.val, hr⟩ : Fin 10000) q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 128 + 1 * q.val = q.val; omega
  show k0_pay1 (F := Ideal) (iblk0 V c 0 t) (iblk0 V c 1 t) (ix2 p q) = prod (V c main_v0) (V c main_v2) (((cfg0.win 2).blk t).view.emb (ix2 p q))
  rw [hi, prod_ix2]
  refine (pay _ _ p q).trans ?_
  unfold prodAt
  refine Finset.sum_congr rfl fun j _ => ?_
  have h0 : ((cfg0.win 0).blk t).view.emb (ix2 p j) = ix2 (⟨win0_2.index t (0 : Fin 2) * 2000 + p.val, hr⟩ : Fin 10000) j := by
    funext a; apply Fin.ext
    match a with
    | ⟨0, _⟩ => show win0_0.index t (0 : Fin 2) * 2000 + 1 * p.val = win0_2.index t (0 : Fin 2) * 2000 + p.val; omega
    | ⟨1, _⟩ => show win0_0.index t (1 : Fin 2) * 128 + 1 * j.val = j.val; omega
  have h1 : ((cfg0.win 1).blk t).view.emb (ix2 j q) = ix2 j q := by
    funext a; apply Fin.ext
    match a with
    | ⟨0, _⟩ => show win0_1.index t (0 : Fin 2) * 128 + 1 * j.val = j.val; omega
    | ⟨1, _⟩ => show win0_1.index t (1 : Fin 2) * 128 + 1 * q.val = q.val; omega
  refine congrArg₂ (· * ·) ?_ ?_
  · show V c main_v0 (((cfg0.win 0).blk t).view.emb (ix2 p j)) = _
    rw [h0]
  · show V c main_v2 (((cfg0.win 1).blk t).view.emb (ix2 j q)) = _
    rw [h1]

/-- An index of the output array is in point t's block iff each coordinate is in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row r of the output is written back by the point whose row block is r / 2000. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := idx_onto ⟨(i 0).val / 2000, by omega⟩
  have ht' : win0_2.index t (0 : Fin 2) = (i 0).val / 2000 := ht
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array when the region is left: the whole product of the arrays the region found. -/
theorem final (c : Dev nD) : (dat0 V c).arrAt 2 cfg0.N = prod (V c main_v0) (V c main_v2) :=
  (dat0 V c).arrAt_eq_of_cover 2 (prod (V c main_v0) (V c main_v2)) (fun t _ => flushed_eq V c t) cover

end Cert.KernelIdeal.Feat

end
-- ==== Proof.AggValue.lean ====
/-
  The aggregation's region: what its output array holds when the region is left, as one function of the three
  arrays it reads, whatever those hold when the region is entered. The grid has twenty-five points; point t reads
  rows 400·t … 400·t + 399 of the adjacency, the whole feature array and the bias row, and writes back the same rows
  of the output. The body's stored value at (p, q) is the sum over k of adjacency-block (p, k) · features (k, q)
  (narrowing the left operand's format is the identity on the extended reals; the accumulator is zero) plus the
  bias row at q, so the block point t writes is rows 400·t … of the whole aggregation, and the blocks cover the output.
-/
import proofs.«157788_g34239479284012_cont_8to1_b_1779_5_alg».proof.Proof.Gen.KernelIdeal.Frame
import proofs.«157788_g34239479284012_cont_8to1_b_1779_5_alg».proof.Proof.LibMatmul
import Idealize.ShloMosaic.Lib.Pipeline.Value
import Idealize.ShloMosaic.Lib.ValueIdx
import Idealize.ShloMosaic.Lib.ValueLayout

noncomputable section

open scoped BigOperators

namespace Cert.KernelIdeal.Agg

open Cert.KernelIdeal Cert.KernelIdeal.Gen
open Idealize.ShloMosaic Idealize.ShloMosaic.TcCoe Idealize.SL.Sem Idealize.ShloMosaic.ValueIdx
open Idealize.ShloMosaic.Pipeline (Dat)

/-- Entry (n, o) of adjacency · features plus the bias row. -/
def aggAt (f : FVec Ideal S10000x128 .bf16) (b2 : FVec Ideal S1x128 .f32) (a2 : FVec Ideal S10000x10000 .f32)
    (n : Fin 10000) (o : Fin 128) : EReal :=
  (∑ k : Fin 10000, a2 (ix2 n k) * f (ix2 k o)) + b2 (ix2 (0 : Fin 1) o)

/-- The aggregation as an array. -/
def agg (f : FVec Ideal S10000x128 .bf16) (b2 : FVec Ideal S1x128 .f32) (a2 : FVec Ideal S10000x10000 .f32) :
    FVec Ideal S10000x128 .f32 :=
  fun i => aggAt f b2 a2 (i 0) (i 1)

theorem agg_ix2 (f : FVec Ideal S10000x128 .bf16) (b2 : FVec Ideal S1x128 .f32) (a2 : FVec Ideal S10000x10000 .f32)
    (n : Fin 10000) (o : Fin 128) : agg f b2 a2 (ix2 n o) = aggAt f b2 a2 n o := rfl

theorem hz : (![0, 0] : Fin 2 → Nat) = fun _ => 0 := funext fun a => by fin_cases a <;> rfl

/-- The body's stored value at (p, q): the sum over k of block (p, k) · features (k, q), plus the bias row at q. -/
theorem pay (v0 : Vec Ideal S400x10000 .f32) (v3 : Vec Ideal S10000x128 .bf16) (v6 : Vec Ideal S1x128 .f32)
    (p : Fin 400) (q : Fin 128) :
    k1_pay1 (F := Ideal) v0 v3 v6 (ix2 p q) = (∑ k : Fin 10000, v0 (ix2 p k) * v3 (ix2 k q)) + v6 (ix2 (0 : Fin 1) q) := by
  show FloatOps.matmul (F := Ideal) (φ₁ := .bf16) (φ₂ := .bf16) dot_S400x10000_S10000x128_S400x128_1_0_0_1_n_n none
      (truncf .bf16 (shapeCast S400x10000 v0 shapeCasts_S400x10000_S400x10000 : FVec Ideal S400x10000 .f32) bitsLt_bf16_f32)
      (shapeCast S10000x128 v3 shapeCasts_S10000x128_S10000x128)
      (constant S400x128 .f32 0x00000000#32) (ix2 p q)
    + broadcastTo S400x128 (shapeCast S1x128 v6 shapeCasts_S1x128_S1x128) broadcasts_S1x128_S400x128 (ix2 p q) = _
  rw [shapeCast_self, shapeCast_self, shapeCast_self, broadcastTo_1b_ab_apply]
  refine congrArg (· + v6 (ix2 (0 : Fin 1) q)) ?_
  exact matmul_zero_ix2 dot_S400x10000_S10000x128_S400x128_1_0_0_1_n_n rfl rfl rfl rfl rfl rfl none
    (truncf .bf16 (v0 : FVec Ideal S400x10000 .f32) bitsLt_bf16_f32) v3 p q

/-- The printed index maps over the twenty-five points: the adjacency block and the output block move together along
    the rows, every other block index is zero, and the row block index stays below twenty-five. -/
theorem idx_facts : ∀ t : Fin cfg1.N, win1_2.index t (0 : Fin 2) = win1_3.index t (0 : Fin 2)
    ∧ win1_2.index t (1 : Fin 2) = 0 ∧ win1_3.index t (1 : Fin 2) = 0
    ∧ win1_0.index t (0 : Fin 2) = 0 ∧ win1_0.index t (1 : Fin 2) = 0
    ∧ win1_1.index t (0 : Fin 2) = 0 ∧ win1_1.index t (1 : Fin 2) = 0 ∧ win1_3.index t (0 : Fin 2) < 25 :=
  (by decide +kernel : ∀ t : Fin grid1.N, _)

/-- Every row block is some point's. -/
theorem idx_onto : ∀ q0 : Fin 25, ∃ t : Fin cfg1.N, win1_3.index t (0 : Fin 2) = q0.val :=
  (by decide +kernel : ∀ q0 : Fin 25, ∃ t : Fin grid1.N, win1_3.index t (0 : Fin 2) = q0.val)

variable (V : (c : Dev nD) → (b : Ref sig .tc) → Buf (Elt Ideal) ((c : Thread nD τ).loc b))

/-- What point t writes back is block t of the whole aggregation of the three arrays as the region finds them. -/
theorem flushed_eq (c : Dev nD) (t : Fin cfg1.N) :
    (dat1 V c).flushed 3 t
      = ((cfg1.win 3).blk t).view.read (Elt Ideal) (agg (V c main_v4) (V c main_v3) (V c main_v1)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x128) hz, View.ld_unit_zero (S := S1x128) hz]
  obtain ⟨e0, e1, e2, e3, e4, e5, e6, e7⟩ := idx_facts t
  funext y
  obtain ⟨p, q, rfl⟩ : ∃ (p : Fin 400) (q : Fin 128), y = ix2 p q := ⟨y 0, y 1, eq_ix2 y⟩
  have hr : win1_3.index t (0 : Fin 2) * 400 + p.val < 10000 := by have := p.isLt; omega
  have hi : ((cfg1.win 3).blk t).view.emb (ix2 p q) = ix2 (⟨win1_3.index t (0 : Fin 2) * 400 + p.val, hr⟩ : Fin 10000) q := by
    funext a; apply Fin.ext
    match a with
    | ⟨0, _⟩ => show win1_3.index t (0 : Fin 2) * 400 + 1 * p.val = win1_3.index t (0 : Fin 2) * 400 + p.val; omega
    | ⟨1, _⟩ => show win1_3.index t (1 : Fin 2) * 128 + 1 * q.val = q.val; omega
  show k1_pay1 (F := Ideal) (iblk1 V c 2 t) (iblk1 V c 0 t) (iblk1 V c 1 t) (ix2 p q)
    = agg (V c main_v4) (V c main_v3) (V c main_v1) (((cfg1.win 3).blk t).view.emb (ix2 p q))
  rw [hi, agg_ix2]
  refine (pay _ _ _ p q).trans ?_
  unfold aggAt
  have hb : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  refine congrArg₂ (· + ·) (Finset.sum_congr rfl fun k _ => ?_) ?_
  · have h2 : ((cfg1.win 2).blk t).view.emb (ix2 p k) = ix2 (⟨win1_3.index t (0 : Fin 2) * 400 + p.val, hr⟩ : Fin 10000) k := by
      funext a; apply Fin.ext
      match a with
      | ⟨0, _⟩ => show win1_2.index t (0 : Fin 2) * 400 + 1 * p.val = win1_3.index t (0 : Fin 2) * 400 + p.val; omega
      | ⟨1, _⟩ => show win1_2.index t (1 : Fin 2) * 10000 + 1 * k.val = k.val; omega
    have h0 : ((cfg1.win 0).blk t).view.emb (ix2 k q) = ix2 k q := by
      funext a; apply Fin.ext
      match a with
      | ⟨0, _⟩ => show win1_0.index t (0 : Fin 2) * 10000 + 1 * k.val = k.val; omega
      | ⟨1, _⟩ => show win1_0.index t (1 : Fin 2) * 128 + 1 * q.val = q.val; omega
    refine congrArg₂ (· * ·) ?_ ?_
    · show V c main_v1 (((cfg1.win 2).blk t).view.emb (ix2 p k)) = _
      rw [h2]
    · show V c main_v4 (((cfg1.win 0).blk t).view.emb (ix2 k q)) = _
      rw [h0]
  · show V c main_v3 (((cfg1.win 1).blk t).view.emb (ix2 (0 : Fin 1) q)) = _
    rw [hb]

/-- An index of the output array is in point t's block iff each coordinate is in the block's range on its axis. -/
theorem mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v5).slice (win1_3.rect t)).set ↔ _
  rw [View.set_slice_whole, Rect.mem_set_unit]
  exact Iff.rfl

/-- Row r of the output is written back by the point whose row block is r / 400. -/
theorem cover (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := idx_onto ⟨(i 0).val / 400, by omega⟩
  have ht' : win1_3.index t (0 : Fin 2) = (i 0).val / 400 := ht
  obtain ⟨e0, e1, e2, e3, e4, e5, e6, e7⟩ := idx_facts t
  refine ⟨t, flush1_3 t, ?_⟩
  rw [mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- The output array when the region is left: the whole aggregation of the arrays the region found. -/
theorem final (c : Dev nD) : (dat1 V c).arrAt 3 cfg1.N = agg (V c main_v4) (V c main_v3) (V c main_v1) :=
  (dat1 V c).arrAt_eq_of_cover 3 (agg (V c main_v4) (V c main_v3) (V c main_v1)) (fun t _ => flushed_eq V c t) cover

end Cert.KernelIdeal.Agg

end
-- ==== Proof.Spec.lean ====
/-
  The graph-convolution layer as one function of its four argument arrays, entry by entry, on the extended reals.
  With seq of shape [1, N, 128], adj of shape [1, N, N], W of shape [128, 128] and b of shape [128] (N = 10000),
  the entry (u, n, o) of the result is

      ( sum over k < N of  adj (u, n, k) * ( sum over j < 128 of  seq (u, k, j) * W (o, j) ) )  +  b o :

  row k of the projected features seq · Wᵀ, weighted by the adjacency entry (n, k), summed over k, plus the bias.
  Both programs compute exactly this nested sum, in this grouping, so no law of the extended reals beyond
  reading each operation at an index is needed to compare them.
-/
import Idealize.ShloMosaic.Lib.ValueIdx
import Idealize.ShloMosaic.PureOps.Ideal

noncomputable section

open scoped BigOperators

namespace Cert.GcnLayer

open Idealize.ShloMosaic Idealize.ShloMosaic.ValueIdx

/-- Entry (k, o) of the projected features: row k of seq against row o of W. -/
def featAt (seq : FVec Ideal ⟨3, ![1, 10000, 128]⟩ .f32) (W : FVec Ideal ⟨2, ![128, 128]⟩ .f32)
    (u : Fin 1) (k : Fin 10000) (o : Fin 128) : EReal :=
  ∑ j : Fin 128, seq (ix3 u k j) * W (ix2 o j)

/-- Entry (u, n, o) of the layer's result. -/
def layerAt (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32)
    (u : Fin 1) (n : Fin 10000) (o : Fin 128) : EReal :=
  (∑ k : Fin 10000, adj (ix3 u n k) * featAt seq W u k o) + b (ix1 o)

/-- The layer's result as an array. -/
def layer (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32) :
    FVec Ideal ⟨3, ![1, 10000, 128]⟩ .f32 :=
  fun i => layerAt seq adj W b (i 0) (i 1) (i 2)

theorem layer_ix3 (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32) (u : Fin 1) (n : Fin 10000) (o : Fin 128) :
    layer seq adj W b (ix3 u n o) = layerAt seq adj W b u n o := rfl

end Cert.GcnLayer

end
-- ==== Proof.Boundary.lean ====
/-
  The result buffer's contents at the last segment boundary, read back through the four segments to the
  argument arrays. The closing reshape views the aggregation's output [10000, 128] as [1, 10000, 128]. The
  aggregation's output is adjacency₂ · features + bias row, where it found: the features — the output of the feature
  product's region, seq₂ · Wᵀ of what THAT region found —, and adjacency₂, bias row, seq₂ and Wᵀ as the opening host
  stretch left them: adj and seq with their unit axis dropped, b with a unit axis added, W transposed. Read at
  (u, n, o), with u the one value of the unit axis, this is the layer's nested sum.
-/
import proofs.«157788_g34239479284012_cont_8to1_b_1779_5_alg».proof.Proof.Gen.KernelIdeal.Frame
import proofs.«157788_g34239479284012_cont_8to1_b_1779_5_alg».proof.Proof.FeatValue
import proofs.«157788_g34239479284012_cont_8to1_b_1779_5_alg».proof.Proof.AggValue
import proofs.«157788_g34239479284012_cont_8to1_b_1779_5_alg».proof.Proof.Spec
import Idealize.ShloMosaic.Lib.StableHlo.Run
import Idealize.ShloMosaic.Lib.ValueLayout

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## The opening host stretch -/

/-- seq with its unit axis dropped. -/
theorem entry_seq (c : Dev nD) :
    V1 m ρ c main_v0 = shapeCast S10000x128 (m ((c : Thread nD τ).loc main_arg0)) shapeCasts_S1x10000x128_S10000x128 := by
  show StableHlo.after hostOps0 (W0 m ρ c) (Proc.devRef .tc main_v0) = _
  after_results
  rfl

/-- adj with its unit axis dropped. -/
theorem entry_adj (c : Dev nD) :
    V1 m ρ c main_v1 = shapeCast S10000x10000 (m ((c : Thread nD τ).loc main_arg1)) shapeCasts_S1x10000x10000_S10000x10000 := by
  show StableHlo.after hostOps0 (W0 m ρ c) (Proc.devRef .tc main_v1) = _
  after_results
  rfl

/-- W transposed. -/
theorem entry_wt (c : Dev nD) :
    V1 m ρ c main_v2 = transpose S128x128 [1, 0] (m ((c : Thread nD τ).loc main_arg2)) transposes_S128x128_S128x128_1_0 := by
  show StableHlo.after hostOps0 (W0 m ρ c) (Proc.devRef .tc main_v2) = _
  after_results

/-- b as one row. -/
theorem entry_bias (c : Dev nD) :
    V1 m ρ c main_v3 = shapeCast S1x128 (m ((c : Thread nD τ).loc main_arg3)) shapeCasts_S128_S1x128 := by
  show StableHlo.after hostOps0 (W0 m ρ c) (Proc.devRef .tc main_v3) = _
  after_results
  rfl

/-! ## The two regions and the closing reshape -/

/-- The features the aggregation finds are the feature product's output. -/
theorem mid_feat (c : Dev nD) : V2 m ρ c main_v4 = Feat.prod (V1 m ρ c main_v0) (V1 m ρ c main_v2) :=
  (W2_arr m ρ c 2).trans (Feat.final (V1 m ρ) c)

/-- The feature product's region leaves the adjacency and the bias row as it found them. -/
theorem mid_adj (c : Dev nD) : V2 m ρ c main_v1 = V1 m ρ c main_v1 := W2_of_ne m ρ c main_v1 (by decide)
theorem mid_bias (c : Dev nD) : V2 m ρ c main_v3 = V1 m ρ c main_v3 := W2_of_ne m ρ c main_v3 (by decide)

/-- The aggregation's output when its region is left. -/
theorem exit_agg (c : Dev nD) :
    W3 m ρ c (Proc.devRef .tc main_v5) = Agg.agg (V2 m ρ c main_v4) (V2 m ρ c main_v3) (V2 m ρ c main_v1) :=
  (W3_arr m ρ c 3).trans (Agg.final (V2 m ρ) c)

/-- The result buffer is that output viewed with a leading unit axis. -/
theorem last_reshape (c : Dev nD) :
    W4 m ρ c (Proc.devRef .tc main_v6)
      = shapeCast S1x10000x128 (W3 m ρ c (Proc.devRef .tc main_v5)) shapeCasts_S10000x128_S1x10000x128 := by
  show StableHlo.after hostOps2 (W3 m ρ c) (Proc.devRef .tc main_v6) = _
  after_results
  rfl

/-! ## The result is the layer of the arguments -/

/-- The composed layouts and the two products, read at (u, n, o): dropping the unit axis of adj and seq, transposing W
    and adding a unit axis to b and to the result only rename the coordinates of the layer's nested sum. -/
theorem layer_of_parts (seq : FVec Ideal S1x10000x128 .f32) (adj : FVec Ideal S1x10000x10000 .f32)
    (W : FVec Ideal S128x128 .f32) (b : FVec Ideal S128 .f32) :
    shapeCast S1x10000x128
        (Agg.agg (Feat.prod (shapeCast S10000x128 seq shapeCasts_S1x10000x128_S10000x128)
            (transpose S128x128 [1, 0] W transposes_S128x128_S128x128_1_0))
          (shapeCast S1x128 b shapeCasts_S128_S1x128)
          (shapeCast S10000x10000 adj shapeCasts_S1x10000x10000_S10000x10000))
        shapeCasts_S10000x128_S1x10000x128
      = Cert.GcnLayer.layer seq adj W b := by
  funext i
  obtain ⟨u, n, o, rfl⟩ : ∃ (u : Fin 1) (n : Fin 10000) (o : Fin 128), i = ix3 u n o := ⟨i 0, i 1, i 2, eq_ix3 i⟩
  obtain rfl : u = 0 := Subsingleton.elim _ _
  rw [shapeCast_ab_1ab_apply, Agg.agg_ix2, Cert.GcnLayer.layer_ix3]
  unfold Agg.aggAt Cert.GcnLayer.layerAt Cert.GcnLayer.featAt
  rw [shapeCast_a_1a_apply]
  refine congrArg (· + b (ix1 o)) (Finset.sum_congr rfl fun k _ => ?_)
  rw [shapeCast_1ab_ab_apply, Feat.prod_ix2]
  unfold Feat.prodAt
  refine congrArg (adj (ix3 (0 : Fin 1) n k) * ·) (Finset.sum_congr rfl fun j _ => ?_)
  rw [shapeCast_1ab_ab_apply, transpose_ix2_apply]

/-- The result buffer holds the layer of the argument arrays. -/
theorem result_eq (c : Dev nD) :
    W4 m ρ c (Proc.devRef .tc main_v6)
      = Cert.GcnLayer.layer (m ((c : Thread nD τ).loc main_arg0)) (m ((c : Thread nD τ).loc main_arg1))
          (m ((c : Thread nD τ).loc main_arg2)) (m ((c : Thread nD τ).loc main_arg3)) := by
  rw [last_reshape, exit_agg, mid_feat, mid_adj, mid_bias, entry_seq, entry_adj, entry_wt, entry_bias]
  exact layer_of_parts _ _ _ _

end Cert.KernelIdeal.Whole

end
-- ==== Proof.RefLayer.lean ====
/-
  The reference computes the layer: its five host operations, read one at a time at an index, compose to the
  nested sum. The first product contracts the feature axis of seq against the feature axis of W (entry (u, k, o) is
  the sum over j of seq (u, k, j) * W (o, j)), the second is batched over the unit axis and contracts the node axis
  of adj against the node axis of the features, and the bias is spread over the unit and node axes before it is added.
-/
import proofs.«157788_g34239479284012_cont_8to1_b_1779_5_alg».proof.Proof.Gen.ReferenceIdeal.Read
import proofs.«157788_g34239479284012_cont_8to1_b_1779_5_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The aggregation reads the adjacency along row n … -/
theorem lidx_agg (u : Fin 1) (n : Fin 10000) (o : Fin 128) (k : Fin 10000) :
    lidx_main_v1 (ix3 u n o) k = ix3 u n k :=
  funext fun a => by match a with | ⟨0, _⟩ => rfl | ⟨1, _⟩ => rfl | ⟨2, _⟩ => rfl

/-- … and the features along column o. -/
theorem ridx_agg (u : Fin 1) (n : Fin 10000) (o : Fin 128) (k : Fin 10000) :
    ridx_main_v1 (ix3 u n o) k = ix3 u k o :=
  funext fun a => by match a with | ⟨0, _⟩ => rfl | ⟨1, _⟩ => rfl | ⟨2, _⟩ => rfl

/-- The projection reads seq along row k … -/
theorem lidx_feat (u : Fin 1) (k : Fin 10000) (o : Fin 128) (j : Fin 128) :
    lidx_main_v0 (ix3 u k o) j = ix3 u k j :=
  funext fun a => by match a with | ⟨0, _⟩ => rfl | ⟨1, _⟩ => rfl | ⟨2, _⟩ => rfl

/-- … and W along row o. -/
theorem ridx_feat (u : Fin 1) (k : Fin 10000) (o : Fin 128) (j : Fin 128) :
    ridx_main_v0 (ix3 u k o) j = ix2 o j :=
  funext fun a => by match a with | ⟨0, _⟩ => rfl | ⟨1, _⟩ => rfl

/-- The spread bias reads b at the output feature. -/
theorem idx_bias (u : Fin 1) (n : Fin 10000) (o : Fin 128) :
    idx_main_v2 (idx_main_v3 (ix3 u n o)) = ix1 o :=
  funext fun a => by match a with | ⟨0, _⟩ => rfl

/-- The reference's result is the layer of its arguments. -/
theorem result_eq (x0 : FVec Ideal S1x10000x128 .f32) (x1 : FVec Ideal S1x10000x10000 .f32)
    (x2 : FVec Ideal S128x128 .f32) (x3 : FVec Ideal S128 .f32) :
    val_main_v4 (F := Ideal) x0 x1 x2 x3 = Cert.GcnLayer.layer x0 x1 x2 x3 := by
  funext i
  obtain ⟨u, n, o, rfl⟩ : ∃ (u : Fin 1) (n : Fin 10000) (o : Fin 128), i = ix3 u n o := ⟨i 0, i 1, i 2, eq_ix3 i⟩
  rw [Cert.GcnLayer.layer_ix3, val_main_v4_apply, val_main_v1_apply, val_main_v3_apply, val_main_v2_apply, idx_bias]
  unfold Cert.GcnLayer.layerAt Cert.GcnLayer.featAt
  simp only [lidx_agg, ridx_agg, val_main_v0_apply, lidx_feat, ridx_feat, Ideal.addf_def]

end Cert.ReferenceIdeal.RefValue

end
-- ==== Proof.lean ====
/-
  The certificate of a graph-convolution layer, out = adj · (seq · Wᵀ) + b, over a dense [1, N, N] adjacency
  (N = 10000, 128 features in and out).

  The kernel program runs two pipelined regions between host layout operations: the first computes the projected
  features seq · Wᵀ in five row blocks and stores them in a narrower float format; the second streams the adjacency in
  twenty-five row blocks and computes adjacency-block · features + bias. The reference program is two host dot
  products and a broadcast addition. On the extended reals a change of float format is the identity and a matrix
  product into a zero accumulator is the plain sum of products, so both programs compute, at every entry (u, n, o),

      ( sum over k of adj (u, n, k) * ( sum over j of seq (u, k, j) * W (o, j) ) ) + b o,

  in this very grouping: the two results are equal by reading every operation at an index, with no further law of
  the extended reals and with no use of the inputs' finiteness.

  Each program's frame (termination without a fault, the argument arrays unchanged) comes from its run; the kernel's
  idealization rewrote nothing, so there is nothing to preserve beyond the text itself.
-/
import proofs.«157788_g34239479284012_cont_8to1_b_1779_5_alg».proof.Defs
import proofs.«157788_g34239479284012_cont_8to1_b_1779_5_alg».proof.Proof.Gen.Kernel
import proofs.«157788_g34239479284012_cont_8to1_b_1779_5_alg».proof.Proof.Gen.Kernel.Skeleton
import proofs.«157788_g34239479284012_cont_8to1_b_1779_5_alg».proof.Proof.Gen.Kernel.Launch
import proofs.«157788_g34239479284012_cont_8to1_b_1779_5_alg».proof.Proof.Gen.Kernel.Points
import proofs.«157788_g34239479284012_cont_8to1_b_1779_5_alg».proof.Proof.Gen.Kernel.Frame
import proofs.«157788_g34239479284012_cont_8to1_b_1779_5_alg».proof.Proof.Gen.KernelIdeal
import proofs.«157788_g34239479284012_cont_8to1_b_1779_5_alg».proof.Proof.Gen.KernelIdeal.Skeleton
import proofs.«157788_g34239479284012_cont_8to1_b_1779_5_alg».proof.Proof.Gen.KernelIdeal.Launch
import proofs.«157788_g34239479284012_cont_8to1_b_1779_5_alg».proof.Proof.Gen.KernelIdeal.Points
import proofs.«157788_g34239479284012_cont_8to1_b_1779_5_alg».proof.Proof.Gen.KernelIdeal.Frame
import proofs.«157788_g34239479284012_cont_8to1_b_1779_5_alg».proof.Proof.Gen.ReferenceIdeal
import proofs.«157788_g34239479284012_cont_8to1_b_1779_5_alg».proof.Proof.Gen.ReferenceIdeal.Run
import proofs.«157788_g34239479284012_cont_8to1_b_1779_5_alg».proof.Proof.Gen.ReferenceIdeal.Read
import proofs.«157788_g34239479284012_cont_8to1_b_1779_5_alg».proof.Proof.Gen.Pre_finite_inputs
import proofs.«157788_g34239479284012_cont_8to1_b_1779_5_alg».proof.Proof.KernelRun
import proofs.«157788_g34239479284012_cont_8to1_b_1779_5_alg».proof.Proof.Boundary
import proofs.«157788_g34239479284012_cont_8to1_b_1779_5_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the (agreeing) argument arrays in their result buffers. -/
theorem algebraic : Cert.algebraic_KernelIdeal_ReferenceIdeal := by
  intro m ρ m' ρ' _ hagree
  refine ⟨fun c => Cert.GcnLayer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result_eq m ρ c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v4_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
